-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32768x1024 .f32) (main_arg1 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32768x1024 : Shape := ⟨2, ![32768, 1024]⟩
abbrev S1024x1024 : Shape := ⟨2, ![1024, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S_ : Shape := ⟨0, ![]⟩

abbrev nBuf : Space → Nat
  | .hbm => 21
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S2x1024x1024, .f32⟩
  | .hbm, ⟨4, _⟩ => ⟨S1x1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S1x1024x1024, .f32⟩
  | .local _ .vmem, ⟨6, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v17 : BitVec 1 := Scalar.cmpi .eq arg1 c31_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  slices_S2x1024x1024_S1x1024x1024_0_0_0 : S2x1024x1024.Slices ![0, 0, 0] S1x1024x1024
  slices_S2x1024x1024_S1x1024x1024_1_0_0 : S2x1024x1024.Slices ![1, 0, 0] S1x1024x1024
  bcast_S_S1024x1024 : S_.BroadcastsInDim S1024x1024 (![] : Fin 0 → Fin S1024x1024.rank)
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .f32 = 32 ∨ (Rect.block (s := S32768x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S2x1024x1024.size a
  hwx0_3 : ∀ i : grid0.Coords, EltTy.bits .f32 = 32 ∨ (Rect.block (s := S2x1024x1024) S1x1024x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S1024x1024 : Shape := ⟨2, ![1024, 1024]⟩
abbrev S1024x32768 : Shape := ⟨2, ![1024, 32768]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S1024x32768, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  transposes_S32768x1024_S1024x32768_1_0 : S32768x1024.Transposes [1, 0] S1024x32768
  bcast_S_S1024x1024 : S_.BroadcastsInDim S1024x1024 (![] : Fin 0 → Fin S1024x1024.rank)
  dot_S32768x1024_S1024x1024_S32768x1024_1_0_0_1_n_n_wf : DotDims.WF S32768x1024 S1024x1024 S32768x1024 [1] [0] [0] [1] [] []
  dot_S1024x32768_S32768x1024_S1024x1024_1_0_0_1_n_n_wf : DotDims.WF S1024x32768 S32768x1024 S1024x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S1024x32768_S32768x1024_S1024x1024_1_0_0_1_n_n : DotDims S1024x32768 S32768x1024 S1024x1024 where
  lhsContracting := [1]
  rhsContracting := [0]
  lhsNonContracting := [0]
  rhsNonContracting := [1]
  lhsBatch := []
  rhsBatch := []
  wf := dot_S1024x32768_S32768x1024_S1024x1024_1_0_0_1_n_n_wf

class Facts : Prop extends Facts₀ where

variable [Facts]
-- ==== Proof.Spec.lean ====
/-
  The two results as functions of the two argument arrays, index by index, on the extended reals, and the one law
  that joins the two programs.

  With x of 32768 rows and 1024 columns and w a 1024 by 1024 matrix:
    hidden (b, h)  = tanh (sum over k of x (b, k) * w (k, h)),
    corr   (k, h)  = sum over the 32768 rows b of x (b, k) * hidden (b, h),
    updated (k, h) = min 1 (max (-1) (w (k, h) + s * corr (k, h)))   for the one shared scale constant s.
  One program takes the sum over b in one go. The other splits the rows into two halves of 16384, walks each half in
  32 steps of 512 rows adding each step's 512 terms to a running sum, and adds the two halves at the end. Addition
  on the extended reals is commutative and associative with no side condition, so a sum over a range of naturals is
  the sum over an initial part plus the sum over the rest (Finset.sum_range_add): that is all that is used, and no
  finiteness of the inputs is needed.
-/
import Idealize.ShloMosaic.PureOps.Ideal.Laws
import Idealize.ShloMosaic.Lib.ValueIdx

noncomputable section

namespace Cert.Spec

open Idealize.ShloMosaic Idealize.ShloMosaic.ValueIdx

/-- The shapes: the batch of rows, the square matrix, the stack of two square matrices, the scalar. -/
abbrev SX : Shape := ⟨2, ![32768, 1024]⟩
abbrev SW : Shape := ⟨2, ![1024, 1024]⟩
abbrev SP : Shape := ⟨3, ![2, 1024, 1024]⟩
abbrev S0 : Shape := ⟨0, ![]⟩

/-- The hidden layer: tanh of the matrix product, entry by entry. -/
def hidden (X : SX.Idx → EReal) (Wt : SW.Idx → EReal) : SX.Idx → EReal :=
  fun j => Ideal.tanh (∑ k : Fin 1024, X (ix2 (j 0) k) * Wt (ix2 k (j 1)))

/-- Row n's term of the correlation's entry (k, h): x (n, k) * hidden (n, h); zero past the last row, so that it is a
    function of every natural and sums over ranges of naturals need no bound. -/
def term (X : SX.Idx → EReal) (Wt : SW.Idx → EReal) (k h : Fin 1024) (n : ℕ) : EReal :=
  if hn : n < 32768 then X (ix2 ⟨n, hn⟩ k) * hidden X Wt (ix2 ⟨n, hn⟩ h) else 0

theorem term_of_lt (X : SX.Idx → EReal) (Wt : SW.Idx → EReal) (k h : Fin 1024) (n : ℕ) (hn : n < 32768) :
    term X Wt k h n = X (ix2 ⟨n, hn⟩ k) * hidden X Wt (ix2 ⟨n, hn⟩ h) := dif_pos hn

/-- The sum of the first L terms of half c (rows c * 16384, c * 16384 + 1, …). -/
def partialSum (X : SX.Idx → EReal) (Wt : SW.Idx → EReal) (c L : ℕ) (k h : Fin 1024) : EReal :=
  ∑ j ∈ Finset.range L, term X Wt k h (c * 16384 + j)

/-- One more run of M terms. -/
theorem partialSum_add (X : SX.Idx → EReal) (Wt : SW.Idx → EReal) (c L M : ℕ) (k h : Fin 1024) :
    partialSum X Wt c (L + M) k h
      = partialSum X Wt c L k h + ∑ r ∈ Finset.range M, term X Wt k h (c * 16384 + L + r) := by
  unfold partialSum
  rw [Finset.sum_range_add]
  simp only [Nat.add_assoc]

/-- The sum depends on the half and on the entry only through their values. -/
theorem partialSum_congr (X : SX.Idx → EReal) (Wt : SW.Idx → EReal) (L : ℕ) {c c' : ℕ} {k k' h h' : Fin 1024}
    (hc : c = c') (hk : k.val = k'.val) (hh : h.val = h'.val) :
    partialSum X Wt c L k h = partialSum X Wt c' L k' h' := by
  obtain rfl := hc; obtain rfl := Fin.ext hk; obtain rfl := Fin.ext hh; rfl

/-- The stack of the two halves' sums. -/
def partials (X : SX.Idx → EReal) (Wt : SW.Idx → EReal) : SP.Idx → EReal :=
  fun j => partialSum X Wt (j 0).val 16384 (j 1) (j 2)

/-- The correlation of the inputs with the hidden layer over the whole batch. -/
def corr (X : SX.Idx → EReal) (Wt : SW.Idx → EReal) : SW.Idx → EReal :=
  fun j => ∑ b : Fin 32768, X (ix2 b (j 0)) * hidden X Wt (ix2 b (j 1))

/-- THE LAW: the sum over the whole batch is the first half's sum plus the second half's. -/
theorem corr_eq_halves (X : SX.Idx → EReal) (Wt : SW.Idx → EReal) (k h : Fin 1024) :
    corr X Wt (ix2 k h) = partialSum X Wt 0 16384 k h + partialSum X Wt 1 16384 k h := by
  have e : corr X Wt (ix2 k h) = ∑ n ∈ Finset.range (16384 + 16384), term X Wt k h n := by
    rw [show (16384 + 16384 : ℕ) = 32768 from rfl, Finset.sum_range]
    exact Finset.sum_congr rfl fun b _ => (term_of_lt X Wt k h b.val b.isLt).symm
  rw [e, Finset.sum_range_add]
  unfold partialSum
  simp only [Nat.zero_mul, Nat.zero_add, Nat.one_mul]

/-- A step's 512 products, as 512 consecutive terms: rows p * 512, …, p * 512 + 511 (p below 64). -/
theorem step_terms (X : SX.Idx → EReal) (Wt : SW.Idx → EReal) (k h : Fin 1024) (p : ℕ) (hp : p < 64)
    (row : Fin 512 → Fin 32768) (hrow : ∀ r, (row r).val = p * 512 + r.val) :
    ∑ r : Fin 512, X (ix2 (row r) k) * hidden X Wt (ix2 (row r) h)
      = ∑ r ∈ Finset.range 512, term X Wt k h (p * 512 + r) := by
  rw [Finset.sum_range]
  refine Finset.sum_congr rfl fun r _ => ?_
  have hlt : p * 512 + r.val < 32768 := by have := r.isLt; omega
  rw [term_of_lt X Wt k h _ hlt]
  have e : row r = ⟨p * 512 + r.val, hlt⟩ := Fin.ext (hrow r)
  rw [e]

/-! ## The shared end of both programs: scale, add to w, clamp to [-1, 1] -/

/-- What both programs do with the correlation D: min (1) (max (-1) (w + s * D)), entry by entry, the three constants
    given by their f32 words (the same words in both programs, so their values are never needed). -/
def scaleAddClamp (hb : S0.BroadcastsInDim SW (![] : Fin 0 → Fin SW.rank)) (Wt D : FVec Ideal SW .f32) : FVec Ideal SW .f32 :=
  minimumf (broadcastInDim SW ![] hb (id (constant (F := Ideal) S0 .f32 0x3F800000#32)))
    (maximumf (broadcastInDim SW ![] hb (id (constant (F := Ideal) S0 .f32 0xBF800000#32)))
      (addf Wt (mulf (broadcastInDim SW ![] hb (constant (F := Ideal) S0 .f32 0x34A3D70A#32)) D)))

end Cert.Spec

end
-- ==== Proof.Pieces.lean ====
/-
  What each control case of the body leaves behind, as values.

  The body has three cases: the first step of a core's run (the accumulator is cleared, then the step's
  product is added to it), a middle step (the product is added to what the step before left), and the last step
  (the same, and the accumulator is copied to the partial-sum output). In every case the hidden block is the
  forward payload of the two input blocks; the accumulator is the update payload of the input blocks and of the
  accumulator's previous contents (the cleared block in the first case); and in the last case the partial-sum
  block is the accumulator with a leading unit axis. Stated for any float instance.
-/
import proofs.«112547_j23871428232070_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S1x1024x1024 .f32) (harg5 : arg5.IsWhole) (arg6 : Memref sig .tc .vmem S1024x1024 .f32) (harg6 : arg6.IsWhole)

/-! ## First step of a core's run -/

/-- The hidden block is the forward payload of the two input blocks. -/
theorem hidden_first (hc0 : cond0_0 i) (hc1 : ¬cond0_1 i) (x0 : Vec F S512x1024 .f32) (x1 : Vec F S1024x1024 .f32) :
    out0_A_2 c i arg2 harg2 arg3 harg3 arg4 harg4 arg5 harg5 arg6 harg6 hc0 hc1 x0 x1 = k0_pay3 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  rw [View.canon_unit_zero zero2]
  simp only [View.readAt_eq_ld, harg2.read_unread, harg3.read_unread, harg6.read_unread, View.ld_unit_zero (S := S512x1024) zero2, View.ld_unit_zero (S := S1024x1024) zero2]

/-- The accumulator is the update payload over the cleared block: the clearing store is read back by the update. -/
theorem acc_first (hc0 : cond0_0 i) (hc1 : ¬cond0_1 i) (x0 : Vec F S512x1024 .f32) (x1 : Vec F S1024x1024 .f32) :
    sout0_A_0 c i arg2 harg2 arg3 harg3 arg4 harg4 arg5 harg5 arg6 harg6 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1024) zero2, View.readCov_unit_zero (S := S1024x1024) _ zero2]
  simp only [View.readAt_eq_ld, harg2.read_unread, harg3.read_unread, harg6.read_unread, View.ld_unit_zero (S := S512x1024) zero2, View.ld_unit_zero (S := S1024x1024) zero2]

/-! ## A middle step -/

theorem hidden_middle (hc0 : ¬cond0_0 i) (hc1 : ¬cond0_1 i) (x0 : Vec F S512x1024 .f32) (x1 : Vec F S1024x1024 .f32)
    (xs0 : Vec F S1024x1024 .f32) :
    out0_B_2 c i arg2 harg2 arg3 harg3 arg4 harg4 arg5 harg5 arg6 harg6 hc0 hc1 x0 x1 xs0 = k0_pay3 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  rw [View.canon_unit_zero zero2]
  simp only [View.readAt_eq_ld, harg2.read_unread, harg3.read_unread, harg6.read_unread, View.ld_unit_zero (S := S512x1024) zero2, View.ld_unit_zero (S := S1024x1024) zero2]

/-- The accumulator is the update payload over what the step before left. -/
theorem acc_middle (hc0 : ¬cond0_0 i) (hc1 : ¬cond0_1 i) (x0 : Vec F S512x1024 .f32) (x1 : Vec F S1024x1024 .f32)
    (xs0 : Vec F S1024x1024 .f32) :
    sout0_B_0 c i arg2 harg2 arg3 harg3 arg4 harg4 arg5 harg5 arg6 harg6 hc0 hc1 x0 x1 xs0 = k0_pay4 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero zero2]
  simp only [View.readAt_eq_ld, harg2.read_unread, harg3.read_unread, harg6.read_unread, View.ld_unit_zero (S := S512x1024) zero2, View.ld_unit_zero (S := S1024x1024) zero2]

/-! ## The last step of a core's run -/

theorem hidden_last (hc0 : ¬cond0_0 i) (hc1 : cond0_1 i) (x0 : Vec F S512x1024 .f32) (x1 : Vec F S1024x1024 .f32)
    (xs0 : Vec F S1024x1024 .f32) :
    out0_C_2 c i arg2 harg2 arg3 harg3 arg4 harg4 arg5 harg5 arg6 harg6 hc0 hc1 x0 x1 xs0 = k0_pay3 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero zero2]
  simp only [View.readAt_eq_ld, harg2.read_unread, harg3.read_unread, harg6.read_unread, View.ld_unit_zero (S := S512x1024) zero2, View.ld_unit_zero (S := S1024x1024) zero2]

theorem acc_last (hc0 : ¬cond0_0 i) (hc1 : cond0_1 i) (x0 : Vec F S512x1024 .f32) (x1 : Vec F S1024x1024 .f32)
    (xs0 : Vec F S1024x1024 .f32) :
    sout0_C_0 c i arg2 harg2 arg3 harg3 arg4 harg4 arg5 harg5 arg6 harg6 hc0 hc1 x0 x1 xs0 = k0_pay4 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero zero2]
  simp only [View.readAt_eq_ld, harg2.read_unread, harg3.read_unread, harg6.read_unread, View.ld_unit_zero (S := S512x1024) zero2, View.ld_unit_zero (S := S1024x1024) zero2]

/-- The partial-sum block is the accumulator just updated, read back and given a leading unit axis. -/
theorem partial_last (hc0 : ¬cond0_0 i) (hc1 : cond0_1 i) (x0 : Vec F S512x1024 .f32) (x1 : Vec F S1024x1024 .f32)
    (xs0 : Vec F S1024x1024 .f32) :
    out0_C_3 c i arg2 harg2 arg3 harg3 arg4 harg4 arg5 harg5 arg6 harg6 hc0 hc1 x0 x1 xs0 = k0_pay5 (k0_pay4 x0 x1 xs0) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero zero3, View.readCov_unit_zero (S := S1024x1024) _ zero2]
  simp only [View.readAt_eq_ld, harg2.read_unread, harg3.read_unread, harg6.read_unread, View.ld_unit_zero (S := S512x1024) zero2, View.ld_unit_zero (S := S1024x1024) zero2]

end Cert.KernelIdeal.Found

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibMatmulCols.lean ====
/-
  A product of two rank-2 arrays contracting the FIRST axis of both, read at an index, at the ideal instance.

  For dimension numbers that contract the left operand's axis 0 with the right operand's axis 0 and have no batch
  axis (the transposed-left product a (R x M), b (R x N) -> M x N), the entry (i, j) of the product into a zero
  accumulator is the plain sum over r of a (r, i) * b (r, j) on the extended reals. The two side facts about the free
  axes (hl1, hr1) are decided once per literal record of dimension numbers.
-/
import Idealize.ShloMosaic.PureOps.Ideal.Laws
import Idealize.ShloMosaic.Lib.ValueIdx

noncomputable section

namespace Idealize.ShloMosaic.MatmulCols

open Idealize.ShloMosaic Idealize.ShloMosaic.ValueIdx

variable {R M N : Nat} {φ₁ φ₂ : FTy}

/-- The operand indices of such a product at output index i and contraction position r are (r, i 0) and (r, i 1). -/
theorem operand_indices
    (d : DotDims (⟨2, ![R, M]⟩ : Shape) (⟨2, ![R, N]⟩ : Shape) (⟨2, ![M, N]⟩ : Shape))
    (hcl : d.lhsContracting = [0]) (hcr : d.rhsContracting = [0])
    (hrk : d.contr.rank = 1) (hs : d.contr.size ⟨0, by omega⟩ = R)
    (hl1 : ∀ i q, (d.lhsIdx i q 1).val = (i 0).val) (hr1 : ∀ i q, (d.rhsIdx i q 1).val = (i 1).val)
    (i : (⟨2, ![M, N]⟩ : Shape).Idx) (r : Fin R) :
    d.lhsIdx i ((contrEquiv1 d R hrk hs).symm r) = ix2 r (i 0)
    ∧ d.rhsIdx i ((contrEquiv1 d R hrk hs).symm r) = ix2 r (i 1) := by
  have hk := contrEquiv1_symm_val d R hrk hs r
  constructor
  · funext ax
    apply Fin.ext
    match ax with
    | ⟨0, _⟩ => exact (d.lhsIdx_val_of_single hcl _ _).trans hk
    | ⟨1, _⟩ => exact hl1 _ _
  · funext ax
    apply Fin.ext
    match ax with
    | ⟨0, _⟩ => exact (d.rhsIdx_val_of_single hcr _ _).trans hk
    | ⟨1, _⟩ => exact hr1 _ _

/-- A kernel's transposed-left matrix product into the zero accumulator, entry by entry. -/
theorem matmul_zero_apply
    (d : DotDims (⟨2, ![R, M]⟩ : Shape) (⟨2, ![R, N]⟩ : Shape) (⟨2, ![M, N]⟩ : Shape)) (prec : Option ContractPrecision)
    (hcl : d.lhsContracting = [0]) (hcr : d.rhsContracting = [0])
    (hrk : d.contr.rank = 1) (hs : d.contr.size ⟨0, by omega⟩ = R)
    (hl1 : ∀ i q, (d.lhsIdx i q 1).val = (i 0).val) (hr1 : ∀ i q, (d.rhsIdx i q 1).val = (i 1).val)
    (a : FVec Ideal (⟨2, ![R, M]⟩ : Shape) φ₁) (b : FVec Ideal (⟨2, ![R, N]⟩ : Shape) φ₂)
    (i : (⟨2, ![M, N]⟩ : Shape).Idx) :
    FloatOps.matmul d prec a b (constant (F := Ideal) (⟨2, ![M, N]⟩ : Shape) .f32 0x00000000#32) i
      = ∑ r : Fin R, a (ix2 r (i 0)) * b (ix2 r (i 1)) := by
  rw [Ideal.matmul_constant_zero_apply, ← Equiv.sum_comp (contrEquiv1 d R hrk hs).symm]
  refine Finset.sum_congr rfl fun r _ => ?_
  obtain ⟨el, er⟩ := operand_indices d hcl hcr hrk hs hl1 hr1 i r
  rw [el, er]
  rfl

end Idealize.ShloMosaic.MatmulCols

end
-- ==== Proof.Payload.lean ====
/-
  The body's two payloads read at an index, at the ideal instance (floats are extended reals, a change of float
  format is the identity).

  For a block xb of 512 rows of x and the whole matrix w:
    the forward payload at (r, h) is tanh (sum over k of xb (r, k) * w (k, h));
    the update payload over an accumulator acc at (k, h) is acc (k, h) + sum over the 512 rows r of
      xb (r, k) * forward (r, h): the product that contracts the rows of the block with the rows of its hidden block;
    the cleared accumulator is 0 everywhere;
    the partial-sum block (the accumulator under a leading unit axis) at (0, k, h) is the accumulator at (k, h).
-/
import proofs.«112547_j23871428232070_2_alg».proof.Proof.Gen.KernelIdeal.Skeleton
import proofs.«112547_j23871428232070_2_alg».proof.Proof.LibMatmulRows
import proofs.«112547_j23871428232070_2_alg».proof.Proof.LibMatmulCols
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Pay

open Cert.KernelIdeal Cert.KernelIdeal.Gen

/-! ## The two products' free axes -/

theorem fwd_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem fwd_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem upd_lhs1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl

theorem upd_rhs1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-! ## The payloads at an index -/

/-- The forward payload at (r, h): tanh of row r of the block times column h of w. -/
theorem forward_apply (xb : Vec Ideal S512x1024 .f32) (w : Vec Ideal S1024x1024 .f32) (r : Fin 512) (h : Fin 1024) :
    k0_pay3 (F := Ideal) xb w (ix2 r h) = Ideal.tanh (∑ k : Fin 1024, xb (ix2 r k) * w (ix2 k h)) := by
  unfold k0_pay3 k0_pay2
  exact congrArg Ideal.tanh (MatmulRows.matmul_zero_apply dot_S512x1024_S1024x1024_S512x1024_1_0_0_1_n_n none rfl rfl rfl rfl
    fwd_lhs0 fwd_rhs1 (truncf .bf16 xb bitsLt_bf16_f32) (truncf .bf16 w bitsLt_bf16_f32) (ix2 r h))

/-- The update payload at (k, h): the accumulator there plus the 512 products of the block's column k with the
    hidden block's column h. -/
theorem update_apply (xb : Vec Ideal S512x1024 .f32) (w : Vec Ideal S1024x1024 .f32) (acc : Vec Ideal S1024x1024 .f32)
    (k h : Fin 1024) :
    k0_pay4 (F := Ideal) xb w acc (ix2 k h)
      = acc (ix2 k h) + ∑ r : Fin 512, xb (ix2 r k) * k0_pay3 (F := Ideal) xb w (ix2 r h) := by
  unfold k0_pay4 k0_pay2
  refine (congrFun (shapeCast_self _ shapeCasts_S1024x1024_S1024x1024) (ix2 k h)).trans ?_
  exact congrArg (acc (ix2 k h) + ·) (MatmulCols.matmul_zero_apply dot_S512x1024_S512x1024_S1024x1024_0_0_1_1_n_n none rfl rfl rfl rfl
    upd_lhs1 upd_rhs1 (truncf .bf16 xb bitsLt_bf16_f32) (truncf .bf16 (k0_pay3 (F := Ideal) xb w) bitsLt_bf16_f32) (ix2 k h))

/-- The cleared accumulator is zero everywhere. -/
theorem cleared_apply (j : S1024x1024.Idx) : k0_pay1 (F := Ideal) j = 0 := by
  unfold k0_pay1
  refine (congrFun (shapeCast_self _ shapeCasts_S1024x1024_S1024x1024) j).trans ?_
  exact Ideal.ofBits_zero_f32

/-- The accumulator under a leading unit axis, at (0, k, h), is the accumulator at (k, h). -/
theorem stacked_apply (acc : Vec Ideal S1024x1024 .f32) (j : S1x1024x1024.Idx) :
    k0_pay5 (F := Ideal) acc j = acc (ix2 (j 1) (j 2)) := by
  unfold k0_pay5
  refine (shapeCast_addUnit_apply (![1024, 1024] : Fin 2 → Nat) acc shapeCasts_S1024x1024_S1x1024x1024 j).trans ?_
  exact congrArg acc (funext fun a => by match a with | ⟨0, _⟩ => rfl | ⟨1, _⟩ => rfl)

end Cert.KernelIdeal.Pay

end
-- ==== Proof.Steps.lean ====
/-
  What the outputs' buffers hold after each step of the grid, at the ideal instance, in terms of the two argument
  arrays x and w.

  Step n (of 64: half n / 32, position n % 32 in the half) reads rows n * 512 … n * 512 + 511 of x and the whole of w.
  After it: the hidden block is rows n * 512 … of hidden x w; the accumulator holds, at (k, h), the sum of the first
  (n % 32 + 1) * 512 terms of half n / 32 — cleared at a half's first step, and at every later step what the step
  before left plus the step's 512 terms (induction on the step, Finset.sum_range_add); at a half's last step the
  partial-sum block holds the half's whole sum of 16384 terms.
-/
import proofs.«112547_j23871428232070_2_alg».proof.Proof.Gen.KernelIdeal.Frame
import proofs.«112547_j23871428232070_2_alg».proof.Proof.Spec
import proofs.«112547_j23871428232070_2_alg».proof.Proof.Pieces
import proofs.«112547_j23871428232070_2_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Steps

open Cert.KernelIdeal Cert.KernelIdeal.Gen Cert.Spec

/-! ## The input blocks at an index (any float instance) -/

section Blocks
variable {F : FTy → Type} [FloatOps F]
variable (m : (ℓ : Loc nD τ sig) → Buf (Elt F) ℓ)

/-- Step t reads row block t of x, and all its columns. -/
theorem x_index : ∀ t : Fin cfg0.N, win0_0.index t 0 = t.val ∧ win0_0.index t 1 = 0 :=
  (by decide +kernel : ∀ t : Fin grid0.N, win0_0.index t 0 = t.val ∧ win0_0.index t 1 = 0)

/-- Every step reads the one block of w. -/
theorem w_index : ∀ t : Fin cfg0.N, win0_1.index t 0 = 0 ∧ win0_1.index t 1 = 0 :=
  (by decide +kernel : ∀ t : Fin grid0.N, win0_1.index t 0 = 0 ∧ win0_1.index t 1 = 0)

/-- Entry (r, k) of step t's block of x is x at (t * 512 + r, k). -/
theorem xblock_apply (c : Dev nD) (t : Fin cfg0.N) (r : Fin 512) (k : Fin 1024) (hb : t.val * 512 + r.val < 32768) :
    (iblk m c 0 t : Vec F S512x1024 .f32) (ix2 r k) = m ((c : Thread nD τ).loc main_arg0) (ix2 ⟨t.val * 512 + r.val, hb⟩ k) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [(x_index t).1]; omega
  | ⟨1, _⟩ => show win0_0.index t 1 * 1024 + 1 * k.val = k.val; rw [(x_index t).2]; omega

/-- Every step's block of w is w. -/
theorem wblock_apply (c : Dev nD) (t : Fin cfg0.N) (j : S1024x1024.Idx) :
    (iblk m c 1 t : Vec F S1024x1024 .f32) j = m ((c : Thread nD τ).loc main_arg1) j := by
  unfold iblk
  rw [View.read_apply]
  show V m c main_arg1 _ = m (c.tc.loc main_arg1) _
  unfold V
  congr 1
  funext a
  apply Fin.ext
  match a with
  | ⟨0, _⟩ => show win0_1.index t 0 * 1024 + 1 * (j 0).val = (j 0).val; rw [(w_index t).1]; omega
  | ⟨1, _⟩ => show win0_1.index t 1 * 1024 + 1 * (j 1).val = (j 1).val; rw [(w_index t).2]; omega

end Blocks

/-! ## The payloads over a block that is a run of rows of x -/

/-- The forward payload of a block whose row r is row (row r) of x is those rows of the hidden layer. -/
theorem forward_rows (X : SX.Idx → EReal) (Wt : SW.Idx → EReal) (xb : Vec Ideal S512x1024 .f32) (w : Vec Ideal S1024x1024 .f32)
    (row : Fin 512 → Fin 32768) (hx : ∀ r k, xb (ix2 r k) = X (ix2 (row r) k)) (hw : ∀ j, w j = Wt j)
    (r : Fin 512) (h : Fin 1024) :
    k0_pay3 (F := Ideal) xb w (ix2 r h) = Spec.hidden X Wt (ix2 (row r) h) := by
  rw [Pay.forward_apply]
  unfold Spec.hidden
  refine congrArg Ideal.tanh (Finset.sum_congr rfl fun k _ => ?_)
  rw [hx r k, hw (ix2 k h)]

/-- The update payload of step p's block adds the step's 512 terms to the accumulator. -/
theorem update_rows (X : SX.Idx → EReal) (Wt : SW.Idx → EReal) (xb : Vec Ideal S512x1024 .f32) (w : Vec Ideal S1024x1024 .f32)
    (acc : Vec Ideal S1024x1024 .f32) (p : ℕ) (hp : p < 64)
    (row : Fin 512 → Fin 32768) (hrow : ∀ r, (row r).val = p * 512 + r.val)
    (hx : ∀ r k, xb (ix2 r k) = X (ix2 (row r) k)) (hw : ∀ j, w j = Wt j) (k h : Fin 1024) :
    k0_pay4 (F := Ideal) xb w acc (ix2 k h)
      = acc (ix2 k h) + ∑ r ∈ Finset.range 512, term X Wt k h (p * 512 + r) := by
  rw [Pay.update_apply, ← step_terms X Wt k h p hp row hrow]
  refine congrArg (acc (ix2 k h) + ·) (Finset.sum_congr rfl fun r _ => ?_)
  rw [hx r k, forward_rows X Wt xb w row hx hw r h]

/-! ## After each step -/

variable (m : (ℓ : Loc nD τ sig) → Buf (Elt Ideal) ℓ)

/-- The two argument arrays, as the specification's arrays. -/
abbrev argX (c : Dev nD) : SX.Idx → EReal := m ((c : Thread nD τ).loc main_arg0)
abbrev argW (c : Dev nD) : SW.Idx → EReal := m ((c : Thread nD τ).loc main_arg1)

/-- Row r of step n's block is row n * 512 + r of x. -/
def rowOf (n : ℕ) (hN : n < 64) (r : Fin 512) : Fin 32768 := ⟨n * 512 + r.val, by have := r.isLt; omega⟩

theorem xblock_rows (c : Dev nD) (n : ℕ) (hn : n < cfg0.N) (hN : n < 64) (r : Fin 512) (k : Fin 1024) :
    (iblk m c 0 ⟨n, hn⟩ : Vec Ideal S512x1024 .f32) (ix2 r k) = argX m c (ix2 (rowOf n hN r) k) :=
  xblock_apply m c ⟨n, hn⟩ r k _

/-- The hidden block after step n is rows n * 512 … of the hidden layer. -/
theorem hidden_at (c : Dev nD) (n : ℕ) (hn : n < cfg0.N) (hN : n < 64) (r : Fin 512) (h : Fin 1024) :
    (outsAt0 m c n hn).1 (ix2 r h) = Spec.hidden (argX m c) (argW m c) (ix2 (rowOf n hN r) h) := by
  by_cases h0 : n % 32 = 0
  · have h1 : ¬n % 32 = 31 := by omega
    rw [outsAt0_A m c ⟨n, hn⟩ h0 h1]
    dsimp only
    refine (congrFun (Found.hidden_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun hh => h1 ((hcond0_1 ⟨n, hn⟩).mp hh)) (iblk m c 0 ⟨n, hn⟩) (iblk m c 1 ⟨n, hn⟩)) (ix2 r h)).trans ?_
    exact forward_rows (argX m c) (argW m c) (iblk m c 0 ⟨n, hn⟩) (iblk m c 1 ⟨n, hn⟩) (rowOf n hN) (xblock_rows m c n hn hN) (wblock_apply m c ⟨n, hn⟩) r h
  · have hprev : n - 1 < cfg0.N := Nat.lt_of_le_of_lt (Nat.sub_le _ _) hn
    by_cases h1 : n % 32 = 31
    · rw [outsAt0_C m c ⟨n, hn⟩ h0 h1]
      dsimp only
      refine (congrFun (Found.hidden_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun hh => h0 ((hcond0_0 ⟨n, hn⟩).mp hh)) ((hcond0_1 ⟨n, hn⟩).mpr h1) (iblk m c 0 ⟨n, hn⟩) (iblk m c 1 ⟨n, hn⟩) ((outsAt0 m c (n - 1) hprev).2.2)) (ix2 r h)).trans ?_
      exact forward_rows (argX m c) (argW m c) (iblk m c 0 ⟨n, hn⟩) (iblk m c 1 ⟨n, hn⟩) (rowOf n hN) (xblock_rows m c n hn hN) (wblock_apply m c ⟨n, hn⟩) r h
    · rw [outsAt0_B m c ⟨n, hn⟩ h0 h1]
      dsimp only
      refine (congrFun (Found.hidden_middle (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun hh => h0 ((hcond0_0 ⟨n, hn⟩).mp hh)) (fun hh => h1 ((hcond0_1 ⟨n, hn⟩).mp hh)) (iblk m c 0 ⟨n, hn⟩) (iblk m c 1 ⟨n, hn⟩) ((outsAt0 m c (n - 1) hprev).2.2)) (ix2 r h)).trans ?_
      exact forward_rows (argX m c) (argW m c) (iblk m c 0 ⟨n, hn⟩) (iblk m c 1 ⟨n, hn⟩) (rowOf n hN) (xblock_rows m c n hn hN) (wblock_apply m c ⟨n, hn⟩) r h

/-- THE RUNNING SUM. After step n the accumulator holds the first (n % 32 + 1) * 512 terms of half n / 32. -/
theorem acc_at (c : Dev nD) : ∀ (n : ℕ) (hn : n < cfg0.N) (k h : Fin 1024),
    (outsAt0 m c n hn).2.2 (ix2 k h) = partialSum (argX m c) (argW m c) (n / 32) ((n % 32 + 1) * 512) k h := by
  intro n
  induction n using Nat.strong_induction_on with
  | _ n ih =>
    intro hn k h
    have hN : n < 64 := lt_of_lt_of_eq hn N_0
    by_cases h0 : n % 32 = 0
    · have h1 : ¬n % 32 = 31 := by omega
      rw [outsAt0_A m c ⟨n, hn⟩ h0 h1]
      dsimp only
      refine (congrFun (Found.acc_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun hh => h1 ((hcond0_1 ⟨n, hn⟩).mp hh)) (iblk m c 0 ⟨n, hn⟩) (iblk m c 1 ⟨n, hn⟩)) (ix2 k h)).trans ?_
      refine (update_rows (argX m c) (argW m c) (iblk m c 0 ⟨n, hn⟩) (iblk m c 1 ⟨n, hn⟩) (k0_pay1 (F := Ideal)) n hN (rowOf n hN) (fun _ => rfl)
        (xblock_rows m c n hn hN) (wblock_apply m c ⟨n, hn⟩) k h).trans ?_
      rw [Pay.cleared_apply, zero_add]
      have e1 : (n % 32 + 1) * 512 = 512 := by omega
      have e2 : n * 512 = n / 32 * 16384 := by omega
      rw [e1, e2]
      rfl
    · have hprev : n - 1 < cfg0.N := Nat.lt_of_le_of_lt (Nat.sub_le _ _) hn
      have step : k0_pay4 (F := Ideal) (iblk m c 0 ⟨n, hn⟩) (iblk m c 1 ⟨n, hn⟩) ((outsAt0 m c (n - 1) hprev).2.2) (ix2 k h)
          = partialSum (argX m c) (argW m c) (n / 32) ((n % 32 + 1) * 512) k h := by
        refine (update_rows (argX m c) (argW m c) (iblk m c 0 ⟨n, hn⟩) (iblk m c 1 ⟨n, hn⟩) ((outsAt0 m c (n - 1) hprev).2.2) n hN (rowOf n hN) (fun _ => rfl)
          (xblock_rows m c n hn hN) (wblock_apply m c ⟨n, hn⟩) k h).trans ?_
        rw [ih (n - 1) (by omega) hprev k h]
        have e1 : (n - 1) / 32 = n / 32 := by omega
        have e2 : ((n - 1) % 32 + 1) * 512 = n % 32 * 512 := by omega
        have e3 : (n % 32 + 1) * 512 = n % 32 * 512 + 512 := by omega
        have e4 : n * 512 = n / 32 * 16384 + n % 32 * 512 := by omega
        rw [e1, e2, e3, partialSum_add, e4]
      by_cases h1 : n % 32 = 31
      · rw [outsAt0_C m c ⟨n, hn⟩ h0 h1]
        dsimp only
        exact (congrFun (Found.acc_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun hh => h0 ((hcond0_0 ⟨n, hn⟩).mp hh)) ((hcond0_1 ⟨n, hn⟩).mpr h1) (iblk m c 0 ⟨n, hn⟩) (iblk m c 1 ⟨n, hn⟩) ((outsAt0 m c (n - 1) hprev).2.2)) (ix2 k h)).trans step
      · rw [outsAt0_B m c ⟨n, hn⟩ h0 h1]
        dsimp only
        exact (congrFun (Found.acc_middle (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun hh => h0 ((hcond0_0 ⟨n, hn⟩).mp hh)) (fun hh => h1 ((hcond0_1 ⟨n, hn⟩).mp hh)) (iblk m c 0 ⟨n, hn⟩) (iblk m c 1 ⟨n, hn⟩) ((outsAt0 m c (n - 1) hprev).2.2)) (ix2 k h)).trans step

/-- At a half's last step the partial-sum block holds the half's whole sum. -/
theorem partial_at (c : Dev nD) (n : ℕ) (hn : n < cfg0.N) (h1 : n % 32 = 31) (j : S1x1024x1024.Idx) :
    (outsAt0 m c n hn).2.1 j = partialSum (argX m c) (argW m c) (n / 32) 16384 (j 1) (j 2) := by
  have h0 : ¬n % 32 = 0 := by omega
  have hprev : n - 1 < cfg0.N := Nat.lt_of_le_of_lt (Nat.sub_le _ _) hn
  have e := acc_at m c n hn (j 1) (j 2)
  have e16 : (n % 32 + 1) * 512 = 16384 := by omega
  rw [e16] at e
  rw [outsAt0_C m c ⟨n, hn⟩ h0 h1] at e ⊢
  dsimp only at e ⊢
  refine (congrFun (Found.partial_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun hh => h0 ((hcond0_0 ⟨n, hn⟩).mp hh)) ((hcond0_1 ⟨n, hn⟩).mpr h1) (iblk m c 0 ⟨n, hn⟩) (iblk m c 1 ⟨n, hn⟩) ((outsAt0 m c (n - 1) hprev).2.2)) j).trans ?_
  refine (Pay.stacked_apply _ j).trans ?_
  exact (congrFun (Found.acc_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun hh => h0 ((hcond0_0 ⟨n, hn⟩).mp hh)) ((hcond0_1 ⟨n, hn⟩).mpr h1) (iblk m c 0 ⟨n, hn⟩) (iblk m c 1 ⟨n, hn⟩) ((outsAt0 m c (n - 1) hprev).2.2)) (ix2 (j 1) (j 2))).symm.trans e

end Cert.KernelIdeal.Steps

end
-- ==== Proof.Arrays.lean ====
/-
  From the blocks to the two output arrays of the region, at the ideal instance.

  The hidden output is written back at every step: step t writes rows t * 512 … t * 512 + 511, which are those rows
  of hidden x w, and the 64 steps' row blocks tile the 32768 rows (row b lies in step b / 512's block). The
  partial-sum output is written back at the last step of each half only (steps 31 and 63), slab t / 32 of the stack
  of two matrices, and there it holds the half's whole sum; slab l is covered by step l * 32 + 31. So after the
  region the first array is hidden x w and the second is the stack of the two halves' sums.
-/
import proofs.«112547_j23871428232070_2_alg».proof.Proof.Steps
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Spec Cert.KernelIdeal.Steps

variable (m : (ℓ : Loc nD τ sig) → Buf (Elt Ideal) ℓ)

/-- The two arrays the region is shown to leave, as contents of its two result buffers. -/
abbrev hiddenArr (c : Dev nD) : Buf (Elt Ideal) ((c : Thread nD τ).loc main_v0_0) := Spec.hidden (argX m c) (argW m c)
abbrev partialsArr (c : Dev nD) : Buf (Elt Ideal) ((c : Thread nD τ).loc main_v0_1) := Spec.partials (argX m c) (argW m c)

/-! ## The hidden output -/

/-- Step t writes row block t, all columns. -/
theorem hidden_index : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The hidden block after step n, as one function of the block index. -/
theorem hidden_block (c : Dev nD) (n : ℕ) (hn : n < cfg0.N) (hN : n < 64) :
    (outsAt0 m c n hn).1 = fun y => Spec.hidden (argX m c) (argW m c) (ix2 (rowOf n hN (y 0)) (y 1)) :=
  funext fun y => (congrArg (outsAt0 m c n hn).1 (eq_ix2 y)).trans (hidden_at m c n hn hN (y 0) (y 1))

/-- What step t writes back is block t of the hidden layer. -/
theorem hidden_flushed (c : Dev nD) (t : Fin cfg0.N) :
    (dats m 0 c).flushed 2 t = ((cfg0.win 2).blk t).view.read (Elt Ideal) (hiddenArr m c) := by
  have hN : t.val < 64 := lt_of_lt_of_eq t.isLt N_0
  show (cfg0.win 2).cut (grid0.coords t) ((dats m 0 c).after 2 t) = _
  rw [after0_2, hidden_block m c t.val t.isLt hN]
  funext y
  rw [View.read_apply]
  refine congrArg (Spec.hidden (argX m c) (argW m c)) (funext fun a => Fin.ext ?_)
  match a with
  | ⟨0, _⟩ => show t.val * 512 + (y 0).val = win0_2.index t (0 : Fin 2) * 512 + 1 * (y 0).val; rw [(hidden_index t).1]; omega
  | ⟨1, _⟩ => show (y 1).val = win0_2.index t (1 : Fin 2) * 1024 + 1 * (y 1).val; rw [(hidden_index t).2]; omega

/-- An index of the array is in step t's block iff each coordinate is in the block's range on its axis. -/
theorem hidden_mem_blk (t : Fin cfg0.N) (i : S32768x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0_0).slice (win0_2.rect t)).set ↔ _
  rw [View.set_slice_whole, Rect.mem_set_unit]
  exact Iff.rfl

/-- Row b is in step b / 512's block. -/
theorem hidden_cover (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : cfg0.N = 64 := N_0
  let t : Fin cfg0.N := ⟨(i 0).val / 512, by rw [hN]; omega⟩
  refine ⟨t, flush0_2 t, ?_⟩
  rw [hidden_mem_blk]
  have e0 : win0_2.index t (0 : Fin 2) = (i 0).val / 512 := (hidden_index t).1
  have e1 : win0_2.index t (1 : Fin 2) = 0 := (hidden_index t).2
  intro a
  match a with
  | ⟨0, _⟩ => show win0_2.index t (0 : Fin 2) * 512 ≤ (i 0).val ∧ (i 0).val < win0_2.index t (0 : Fin 2) * 512 + 512; rw [e0]; omega
  | ⟨1, _⟩ => show win0_2.index t (1 : Fin 2) * 1024 ≤ (i 1).val ∧ (i 1).val < win0_2.index t (1 : Fin 2) * 1024 + 1024; rw [e1]; omega

/-- THE FIRST ARRAY after the region: the hidden layer. -/
theorem hidden_final (c : Dev nD) : (dats m 0 c).arrAt 2 cfg0.N = hiddenArr m c :=
  (dats m 0 c).arrAt_eq_of_cover 2 (hiddenArr m c) (fun t _ => hidden_flushed m c t) (hidden_cover)

/-! ## The partial-sum output -/

/-- Step t's block is slab t / 32 of the stack, whole. -/
theorem partial_index : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- What a half's last step writes back is that half's slab of the stack of sums. -/
theorem partial_flushed (c : Dev nD) (t : Fin cfg0.N) (hf : (cfg0.win 3).flush t = true) :
    (dats m 0 c).flushed 3 t = ((cfg0.win 3).blk t).view.read (Elt Ideal) (partialsArr m c) := by
  have h1 : t.val % 32 = 31 := (flush0_3 t).mp hf
  show (cfg0.win 3).cut (grid0.coords t) ((dats m 0 c).after 3 t) = _
  rw [after0_3]
  funext y
  rw [View.read_apply, cast_eq]
  refine (partial_at m c t.val t.isLt h1 _).trans ?_
  unfold partialsArr Spec.partials
  have hy0 : (y 0).val < 1 := (y 0).isLt
  refine partialSum_congr (argX m c) (argW m c) 16384 ?_ ?_ ?_
  · show t.val / 32 = win0_3.index t (0 : Fin 3) * 1 + 1 * (y 0).val; rw [(partial_index t).1]; omega
  · show (y 1).val = win0_3.index t (1 : Fin 3) * 1024 + 1 * (y 1).val; rw [(partial_index t).2.1]; omega
  · show (y 2).val = win0_3.index t (2 : Fin 3) * 1024 + 1 * (y 2).val; rw [(partial_index t).2.2]; omega

theorem partial_mem_blk (t : Fin cfg0.N) (i : S2x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v0_1).slice (win0_3.rect t)).set ↔ _
  rw [View.set_slice_whole, Rect.mem_set_unit]
  exact Iff.rfl

/-- Slab l is in step l * 32 + 31's block, and that step writes back. -/
theorem partial_cover (i : S2x1024x1024.Idx) :
    ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 1024 := (i 2).isLt
  have hN : cfg0.N = 64 := N_0
  let t : Fin cfg0.N := ⟨(i 0).val * 32 + 31, by rw [hN]; omega⟩
  have ht : t.val = (i 0).val * 32 + 31 := rfl
  refine ⟨t, (flush0_3 t).mpr (by rw [ht]; omega), ?_⟩
  rw [partial_mem_blk]
  have e0 : win0_3.index t (0 : Fin 3) = (i 0).val := by rw [(partial_index t).1, ht]; omega
  have e1 : win0_3.index t (1 : Fin 3) = 0 := (partial_index t).2.1
  have e2 : win0_3.index t (2 : Fin 3) = 0 := (partial_index t).2.2
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1024 ≤ (i 1).val ∧ (i 1).val < win0_3.index t (1 : Fin 3) * 1024 + 1024; rw [e1]; omega
  | ⟨2, _⟩ => show win0_3.index t (2 : Fin 3) * 1024 ≤ (i 2).val ∧ (i 2).val < win0_3.index t (2 : Fin 3) * 1024 + 1024; rw [e2]; omega

/-- THE SECOND ARRAY after the region: the stack of the two halves' sums. -/
theorem partial_final (c : Dev nD) : (dats m 0 c).arrAt 3 cfg0.N = partialsArr m c :=
  (dats m 0 c).arrAt_eq_of_cover 3 (partialsArr m c) (fun t hf => partial_flushed m c t hf) (partial_cover)

end Cert.KernelIdeal.Arrays

end
-- ==== Proof.LibSliceRows.lean ====
/-
  A slab of a stack of matrices read at an index.

  A stack of `A` matrices of `B` rows and `C` columns is cut to slab `l`, rows `off` to `off + R − 1`, all columns
  (a unit-stride slice of shape [1, R, C]) and reshaped to an `R × C` matrix.  Entry `(j, k)` of the result is the
  stack's entry `(l, off + j, k)`: the reshape keeps the row-major position and the leading axis has extent one.
  This is how `w[l, off:off+R, :]` of a stacked weight reads, whatever the slab and the row range.
-/
import Idealize.ShloMosaic.Lib.Pipeline.Value
import Idealize.ShloMosaic.Lib.ValueIdx

noncomputable section

namespace Idealize.ShloMosaic.SliceRows

open Idealize.ShloMosaic Idealize.ShloMosaic.ValueIdx Idealize.ShloMosaic.Pipeline

variable {α : Type}

/-- Slab `l`, rows `off …`, of a stack, as a matrix: entry `(j, k)` is the stack's entry `(l, off + j, k)`. -/
theorem slab_rows_apply {A B C R : Nat} (l off : Nat)
    (hs : (⟨3, ![A, B, C]⟩ : Shape).Slices ![l, off, 0] ⟨3, ![1, R, C]⟩)
    (hc : (⟨3, ![1, R, C]⟩ : Shape).ShapeCasts ⟨2, ![R, C]⟩)
    (x : (⟨3, ![A, B, C]⟩ : Shape).Idx → α) (j : Fin R) (k : Fin C) (hl : l < A) (hj : off + j.val < B) :
    shapeCast ⟨2, ![R, C]⟩ (extractStridedSlice ⟨3, ![1, R, C]⟩ ![l, off, 0] x hs) hc (ix2 j k)
      = x (ix3 (⟨l, hl⟩ : Fin A) (⟨off + j.val, hj⟩ : Fin B) k) := by
  rw [shapeCast_apply _ hc (ix2 j k) (ix3 (0 : Fin 1) j k) (by
    rw [Shape.rowMajor_val_three, Shape.rowMajor_val_two]
    show ((0 : Nat) * R + j.val) * C + k.val = j.val * C + k.val
    simp)]
  exact extractStridedSlice_apply _ x hs _ _ (fun a => by
    match a with
    | ⟨0, _⟩ => rfl
    | ⟨1, _⟩ => rfl
    | ⟨2, _⟩ => show k.val = 0 + k.val; omega)

/-- The same with the row named: any `r` equal to `off + j`. -/
theorem slab_rows_apply_at {A B C R : Nat} (l off : Nat)
    (hs : (⟨3, ![A, B, C]⟩ : Shape).Slices ![l, off, 0] ⟨3, ![1, R, C]⟩)
    (hc : (⟨3, ![1, R, C]⟩ : Shape).ShapeCasts ⟨2, ![R, C]⟩)
    (x : (⟨3, ![A, B, C]⟩ : Shape).Idx → α) (j : Fin R) (k : Fin C) (hl : l < A) (r : Nat) (hr : r = off + j.val) (hrB : r < B) :
    shapeCast ⟨2, ![R, C]⟩ (extractStridedSlice ⟨3, ![1, R, C]⟩ ![l, off, 0] x hs) hc (ix2 j k)
      = x (ix3 (⟨l, hl⟩ : Fin A) (⟨r, hrB⟩ : Fin B) k) := by
  subst hr
  exact slab_rows_apply l off hs hc x j k hl hrB

end Idealize.ShloMosaic.SliceRows

end
-- ==== Proof.Halves.lean ====
/-
  The sum of the two slabs of the stack of the halves' sums is the correlation over the whole batch.

  Slab l of the stack, cut out as a [1, 1024, 1024] slice and reshaped to a matrix, reads at (k, h) the stack at
  (l, k, h), which is half l's sum of 16384 terms; the two slabs added entry by entry are the two halves' sums
  added, which is the sum over the whole batch (Spec.corr_eq_halves).
-/
import proofs.«112547_j23871428232070_2_alg».proof.Proof.Spec
import proofs.«112547_j23871428232070_2_alg».proof.Proof.LibSliceRows
import Idealize.ShloMosaic.Lib.ValueIdx

noncomputable section

namespace Cert.Spec

open Idealize.ShloMosaic Idealize.ShloMosaic.ValueIdx

abbrev SP1 : Shape := ⟨3, ![1, 1024, 1024]⟩

/-- Slab l of the stack of sums, as a matrix, at (k, h): half l's sum. -/
theorem slab_apply (X : SX.Idx → EReal) (Wt : SW.Idx → EReal) (l : ℕ) (hl : l < 2)
    (hs : SP.Slices ![l, 0, 0] SP1) (hc : SP1.ShapeCasts SW) (k h : Fin 1024) :
    shapeCast SW (extractStridedSlice SP1 ![l, 0, 0] (partials X Wt) hs) hc (ix2 k h)
      = partialSum X Wt l 16384 k h := by
  rw [SliceRows.slab_rows_apply l 0 hs hc (partials X Wt) k h hl (by have := k.isLt; omega)]
  unfold partials
  exact partialSum_congr X Wt 16384 rfl (Nat.zero_add _) rfl

/-- THE TWO SLABS ADDED are the correlation over the whole batch. -/
theorem slabs_add (X : SX.Idx → EReal) (Wt : SW.Idx → EReal)
    (hs0 : SP.Slices ![0, 0, 0] SP1) (hs1 : SP.Slices ![1, 0, 0] SP1) (hc : SP1.ShapeCasts SW) :
    addf (F := Ideal) (φ := .f32) (shapeCast SW (extractStridedSlice SP1 ![0, 0, 0] (partials X Wt) hs0) hc)
        (shapeCast SW (extractStridedSlice SP1 ![1, 0, 0] (partials X Wt) hs1) hc)
      = corr X Wt := by
  funext j
  obtain ⟨k, h, rfl⟩ : ∃ (k h : Fin 1024), j = ix2 k h := ⟨j 0, j 1, eq_ix2 j⟩
  rw [corr_eq_halves, addf_apply, slab_apply X Wt 0 (by omega) hs0 hc k h, slab_apply X Wt 1 (by omega) hs1 hc k h]

end Cert.Spec

end
-- ==== Proof.Result.lean ====
/-
  The idealized kernel's run with its two results named, at the ideal instance.

  The region leaves its first array at hidden x w and its second at the stack of the two halves' sums (Arrays);
  x and w are unchanged. The host lines after the region cut the two slabs out of the stack, add them — the
  correlation over the whole batch (Spec.slabs_add) — and apply the shared scale-add-clamp with w. So the run's
  two results are hidden x w and scaleAddClamp w (corr x w), the functions the reference computes.
-/
import proofs.«112547_j23871428232070_2_alg».proof.Proof.Arrays
import proofs.«112547_j23871428232070_2_alg».proof.Proof.Halves
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Spec Cert.KernelIdeal.Steps Cert.KernelIdeal.Arrays

variable (m : (ℓ : Loc nD τ sig) → Buf (Elt Ideal) ℓ) (ρ : Dev nD → PrngReg)

/-- What the host lines after the region find in the buffers: the region's arrays as it left them, every other
    buffer as at the region's entry. -/
abbrev seen (c : Dev nD) : Valuation τ sig (Elt Ideal) :=
  Pipeline.withArrays (cfgs 0).spec c (V0 m c) (fun w => (dats m 0 c).arrAt w (cfgs 0).N)

/-- The host lines after the region, read: the shared end applied to w and the two slabs of the stack added. -/
theorem tail_read (c : Dev nD) :
    Pipeline.afterTail₀ cfgs (dats m) 0 (V0 m) [hostOps1, hostOps1_1] c main_v9
      = scaleAddClamp Facts₀.bcast_S_S1024x1024 (seen m c (Proc.devRef .tc main_arg1))
          (addf (shapeCast S1024x1024 (extractStridedSlice S1x1024x1024 ![0, 0, 0] (seen m c (Proc.devRef .tc main_v0_1)) Facts₀.slices_S2x1024x1024_S1x1024x1024_0_0_0) Facts₀.shapeCasts_S1x1024x1024_S1024x1024)
            (shapeCast S1024x1024 (extractStridedSlice S1x1024x1024 ![1, 0, 0] (seen m c (Proc.devRef .tc main_v0_1)) Facts₀.slices_S2x1024x1024_S1x1024x1024_1_0_0) Facts₀.shapeCasts_S1x1024x1024_S1024x1024)) := by
  unfold Pipeline.afterTail₀
  simp only [hostOps1, hostOps1_1, List.flatten_cons, List.flatten_nil, List.append_nil, List.cons_append, List.nil_append]
  after_results
  rfl

/-- They find w unchanged, -/
theorem seen_w (c : Dev nD) : seen m c (Proc.devRef .tc main_arg1) = argW m c :=
  (Pipeline.withArrays_arr spec0 launch0.win.arr_inj c _ _ 1).trans
    (((dats m 0 c).arrAt_in 1 rfl _).trans ((A_eq m c 1).trans (V_main_arg1 m c)))

/-- and the stack of the two halves' sums. -/
theorem seen_partials (c : Dev nD) : seen m c (Proc.devRef .tc main_v0_1) = partialsArr m c :=
  (Pipeline.withArrays_arr spec0 launch0.win.arr_inj c _ _ 3).trans (partial_final m c)

/-- The second result as contents of its buffer. -/
abbrev updatedArr (c : Dev nD) : Buf (Elt Ideal) ((c : Thread nD τ).loc main_v9) :=
  scaleAddClamp Facts₀.bcast_S_S1024x1024 (argW m c) (Spec.corr (argX m c) (argW m c))

theorem tail_eq (c : Dev nD) :
    Pipeline.afterTail₀ cfgs (dats m) 0 (V0 m) [hostOps1, hostOps1_1] c main_v9 = updatedArr m c := by
  rw [tail_read, seen_w, seen_partials]
  exact congrArg (scaleAddClamp Facts₀.bcast_S_S1024x1024 (argW m c))
    (slabs_add (argX m c) (argW m c) Facts₀.slices_S2x1024x1024_S1x1024x1024_0_0_0 Facts₀.slices_S2x1024x1024_S1x1024x1024_1_0_0 Facts₀.shapeCasts_S1x1024x1024_S1024x1024)

/-- The second result's buffer is none of the region's arrays and is not scoped. -/
theorem v9_rest : main_v9 ∈ Pipeline.restRefs sig (cfgs 0).spec :=
  Pipeline.mem_restRefs_of main_v9 rfl (fun w => by fin_cases w <;> decide)

/-- THE RUN: every weakly fair execution ends with the first result at the hidden layer, the second at the clamped
    update, and the arguments unchanged. -/
theorem run : θ_run defs (onTc (τ := τ) (main (F := Ideal))) ⟨m, fun _ => 0, ρ⟩ fun r => ∀ c : Dev nD,
      r.2.mem ((c.tc : Thread nD τ).loc main_v0_0) = hiddenArr m c
      ∧ r.2.mem ((c.tc : Thread nD τ).loc main_v9) = updatedArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (hidden_final m c),
     ((h c).2 main_v9 (v9_rest)).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Result

end
-- ==== Proof.Reference.lean ====
/-
  The reference program's two results are the specification's two functions of the arguments.

  Its first result is tanh of the product x w, entry by entry: the hidden layer. Its second is the shared
  scale-add-clamp of the product of x transposed with the hidden layer, whose entry (k, h) is the sum over all
  32768 rows b of x (b, k) * hidden (b, h): the correlation over the whole batch.
-/
import proofs.«112547_j23871428232070_2_alg».proof.Proof.Gen.ReferenceIdeal.Read
import proofs.«112547_j23871428232070_2_alg».proof.Proof.Spec
import Idealize.ShloMosaic.Lib.ValueIdx

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec

/-- The first result: the hidden layer. -/
theorem hidden_eq (X : SX.Idx → EReal) (Wt : SW.Idx → EReal) : val_main_v1 (F := Ideal) X Wt = Spec.hidden X Wt := by
  funext i
  rw [val_main_v1_apply, val_main_v0_apply]
  unfold Spec.hidden
  refine congrArg Ideal.tanh (Finset.sum_congr rfl fun k _ => ?_)
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

/-- The product of x transposed with the hidden layer: the correlation over the whole batch. -/
theorem corr_eq (X : SX.Idx → EReal) (Wt : SW.Idx → EReal) : val_main_v3 (F := Ideal) X Wt = Spec.corr X Wt := by
  funext i
  rw [val_main_v3_apply]
  unfold Spec.corr
  refine Finset.sum_congr rfl fun b _ => ?_
  rw [val_main_v2_apply, hidden_eq]
  have e1 : idx_main_v2 (lidx_main_v3 i b) = ix2 b (i 0) := funext fun a => Fin.ext (by match a with | ⟨0, _⟩ => rfl | ⟨1, _⟩ => rfl)
  have e2 : ridx_main_v3 i b = ix2 b (i 1) := funext fun a => Fin.ext (by match a with | ⟨0, _⟩ => rfl | ⟨1, _⟩ => rfl)
  rw [e1, e2]
  rfl

/-- The second result: the shared end applied to w and the correlation. -/
theorem updated_eq (X : SX.Idx → EReal) (Wt : SW.Idx → EReal) :
    val_main_v7 (F := Ideal) X Wt = scaleAddClamp Facts₀.bcast_S_S1024x1024 Wt (Spec.corr X Wt) := by
  rw [← corr_eq]
  rfl

end Cert.ReferenceIdeal.RefValue

end
-- ==== Proof.lean ====
/-
  Both programs compute, from x (32768 rows, 1024 columns) and w (1024 by 1024):
    hidden  = tanh (x w), entry by entry, and
    updated = min 1 (max (-1) (w + s * corr)) with corr (k, h) = sum over all rows b of x (b, k) * hidden (b, h)
  and one shared scale constant s (the same float word in both programs).

  The reference takes the sum over b in one product. The kernel splits the rows into two halves of 16384, walks each
  half in 32 steps of 512 rows with a running sum carried from step to step (cleared at a half's first step, written
  out at its last), and the host adds the two halves' sums before the shared scale, add and clamp. At the ideal
  instance floats are extended reals, a change of float format is the identity and every operation is exact, so
  the two sides differ only in the grouping of one finite sum; addition on the extended reals is commutative and
  associative with no side condition, so the groupings agree (Finset.sum_range_add) and the finiteness of the inputs
  is never used. The idealization rewrote nothing, so it is preserved trivially; the three programs' frames are the
  generated frame runs (the reference's is its generated run with the results dropped).
-/
import proofs.«112547_j23871428232070_2_alg».proof.Defs
import proofs.«112547_j23871428232070_2_alg».proof.Proof.Gen.Kernel
import proofs.«112547_j23871428232070_2_alg».proof.Proof.Gen.Kernel.Skeleton
import proofs.«112547_j23871428232070_2_alg».proof.Proof.Gen.Kernel.Launch
import proofs.«112547_j23871428232070_2_alg».proof.Proof.Gen.Kernel.Points
import proofs.«112547_j23871428232070_2_alg».proof.Proof.Gen.Kernel.Frame
import proofs.«112547_j23871428232070_2_alg».proof.Proof.Gen.KernelIdeal
import proofs.«112547_j23871428232070_2_alg».proof.Proof.Gen.KernelIdeal.Skeleton
import proofs.«112547_j23871428232070_2_alg».proof.Proof.Gen.KernelIdeal.Launch
import proofs.«112547_j23871428232070_2_alg».proof.Proof.Gen.KernelIdeal.Points
import proofs.«112547_j23871428232070_2_alg».proof.Proof.Gen.KernelIdeal.Frame
import proofs.«112547_j23871428232070_2_alg».proof.Proof.Gen.ReferenceIdeal
import proofs.«112547_j23871428232070_2_alg».proof.Proof.Gen.ReferenceIdeal.Run
import proofs.«112547_j23871428232070_2_alg».proof.Proof.Gen.ReferenceIdeal.Read
import proofs.«112547_j23871428232070_2_alg».proof.Proof.Gen.Pre_finite_inputs
import proofs.«112547_j23871428232070_2_alg».proof.Proof.Result
import proofs.«112547_j23871428232070_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- At the ideal instance, from memories that agree on x and w, the kernel's two results (its run read back) and the
    reference's two results (its generated run, read index by index) are the same two functions of x and w. -/
theorem algebraic : Cert.algebraic_KernelIdeal_ReferenceIdeal := by
  intro m ρ m' ρ' _ hagree
  refine ⟨fun c => Cert.KernelIdeal.Arrays.hiddenArr m c, fun c => Cert.KernelIdeal.Result.updatedArr m c,
    Cert.KernelIdeal.Result.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1, (h c).2.2.2⟩
  · rw [Cert.ReferenceIdeal.Read.val_main_v1_eq, Cert.ReferenceIdeal.RefValue.hidden_eq, (hagree c).1, (hagree c).2]
  · rw [Cert.ReferenceIdeal.Read.val_main_v7_eq, Cert.ReferenceIdeal.RefValue.updated_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
